-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008 .f32) (main_arg3 : FVec F S11008 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S11008x1 : Shape := ⟨2, ![11008, 1]⟩
abbrev S1x11008 : Shape := ⟨2, ![1, 11008]⟩
abbrev S8192x11008 : Shape := ⟨2, ![8192, 11008]⟩
abbrev S512x4096 : Shape := ⟨2, ![512, 4096]⟩
abbrev S256x4096 : Shape := ⟨2, ![256, 4096]⟩
abbrev S256x1 : Shape := ⟨2, ![256, 1]⟩
abbrev S1x256 : Shape := ⟨2, ![1, 256]⟩
abbrev S512x256 : Shape := ⟨2, ![512, 256]⟩
abbrev S4x2048x11008 : Shape := ⟨3, ![4, 2048, 11008]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S8192x4096, .f32⟩
  | .hbm, ⟨6, _⟩ => ⟨S11008x1, .f32⟩
  | .hbm, ⟨7, _⟩ => ⟨S11008x1, .f32⟩
  | .hbm, ⟨8, _⟩ => ⟨S1x11008, .f32⟩
  | .hbm, ⟨9, _⟩ => ⟨S8192x11008, .f32⟩
  | .hbm, ⟨10, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S11008_S11008x1 : S11008.ShapeCasts S11008x1
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S11008x1.size a
  hwx0_3 : ∀ i : grid0.Coords, EltTy.bits .f32 = 32 ∨ (Rect.block (s := S11008x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x11008.size a
  hwx0_5 : ∀ i : grid0.Coords, EltTy.bits .f32 = 32 ∨ (Rect.block (s := S8192x11008) S512x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S11008x4096, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S4x2048x11008, .f32⟩
  | .hbm, ⟨13, _⟩ => ⟨S1x1x11008, .f32⟩
  | .hbm, ⟨14, _⟩ => ⟨S4x2048x11008, .f32⟩
  | .hbm, ⟨15, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The weight-only-quantized linear layer as ONE function of its five arguments, on the extended reals.

  The integer codes `q[o, k]` are dequantized per output channel `o`: `w[o, k] = (q[o, k] - zp[o]) * scale[o]`,
  and every row `(b, s)` of the activations is contracted with every channel over the input features `k`:
      y[b, s, o] = (∑ k, x[b, s, k] * w[o, k]) + bias[o].
  Both programs compute exactly this term (the factors of each product in this order, the sum over the 4096
  features as a whole), so no algebraic law of the extended reals beyond the definition is needed, and no
  finiteness of the inputs.
-/
import Idealize.ShloMosaic.PureOps.Ideal
import Idealize.ShloMosaic.Lib.ValueIdx

noncomputable section

namespace Cert.Woq

open Idealize.ShloMosaic Idealize.ShloMosaic.ValueIdx

/-- The dequantized weight of output channel `o` at input feature `k`: the code read as a signed integer, less the
    channel's zero point, times the channel's scale. -/
def weight (q : (⟨2, ![11008, 4096]⟩ : Shape).Idx → BitVec 32) (sc zp : (⟨1, ![11008]⟩ : Shape).Idx → EReal)
    (o : Fin 11008) (k : Fin 4096) : EReal :=
  ((FloatOps.sitofp (F := Ideal) .f32 (q (ix2 o k)) : EReal) - zp (ix1 o)) * sc (ix1 o)

/-- Row `(b, s)` of the activations against output channel `o`, plus the channel's bias. -/
def linear (x : (⟨3, ![4, 2048, 4096]⟩ : Shape).Idx → EReal) (q : (⟨2, ![11008, 4096]⟩ : Shape).Idx → BitVec 32)
    (sc zp bias : (⟨1, ![11008]⟩ : Shape).Idx → EReal) (b : Fin 4) (s : Fin 2048) (o : Fin 11008) : EReal :=
  (∑ k : Fin 4096, x (ix3 b s k) * weight q sc zp o k) + bias (ix1 o)

/-- The whole `[4, 2048, 11008]` result, index by index. -/
def result (x : (⟨3, ![4, 2048, 4096]⟩ : Shape).Idx → EReal) (q : (⟨2, ![11008, 4096]⟩ : Shape).Idx → BitVec 32)
    (sc zp bias : (⟨1, ![11008]⟩ : Shape).Idx → EReal) : (⟨3, ![4, 2048, 11008]⟩ : Shape).Idx → EReal :=
  fun i => linear x q sc zp bias (i 0) (i 1) (i 2)

end Cert.Woq

end
-- ==== Proof.RefSide.lean ====
/-
  The reference read at an index: its eleven host operations composed — the codes converted, the zero points and the
  scales spread along the feature axis, the difference, the product, the contraction of the activations' last axis with
  the weights' last axis, the bias spread over the rows and added — are the linear layer's function `Woq.result`.
-/
import proofs.«171484_j69526930587939_1_alg».proof.Proof.Gen.ReferenceIdeal.Read
import proofs.«171484_j69526930587939_1_alg».proof.Proof.Spec

noncomputable section

namespace Cert.ReferenceIdeal.RefValue

open Cert.ReferenceIdeal Cert.ReferenceIdeal.Read Idealize.ShloMosaic Idealize.ShloMosaic.ValueIdx

/-- The left operand of the contraction is read at row `(b, s)`, feature `k`. -/
theorem lidx_eq (b : Fin 4) (s : Fin 2048) (o : Fin 11008) (k : Fin 4096) : lidx_main_v7 (ix3 b s o) k = ix3 b s k :=
  funext fun a => Fin.ext (by match a with | ⟨0, _⟩ => rfl | ⟨1, _⟩ => rfl | ⟨2, _⟩ => rfl)

/-- The right operand of the contraction is read at channel `o`, feature `k`. -/
theorem ridx_eq (b : Fin 4) (s : Fin 2048) (o : Fin 11008) (k : Fin 4096) : ridx_main_v7 (ix3 b s o) k = ix2 o k :=
  funext fun a => Fin.ext (by match a with | ⟨0, _⟩ => rfl | ⟨1, _⟩ => rfl)

/-- A per-channel vector spread to a column and then along the features is read at the channel. -/
theorem chan_eq (o : Fin 11008) (k : Fin 4096) : idx_main_v1 (idx_main_v2 (ix2 o k)) = ix1 o :=
  funext fun a => Fin.ext (by match a with | ⟨0, _⟩ => rfl)

/-- The same for the second such pair of operations (the scales'). -/
theorem chan_eq' (o : Fin 11008) (k : Fin 4096) : idx_main_v4 (idx_main_v5 (ix2 o k)) = ix1 o :=
  funext fun a => Fin.ext (by match a with | ⟨0, _⟩ => rfl)

/-- The bias spread over the rows is read at the channel. -/
theorem bias_eq (b : Fin 4) (s : Fin 2048) (o : Fin 11008) : idx_main_v8 (idx_main_v9 (ix3 b s o)) = ix1 o :=
  funext fun a => Fin.ext (by match a with | ⟨0, _⟩ => rfl)

/-- The weights the reference contracts with are the dequantized weights: the converted code less the channel's zero
    point, times the channel's scale. -/
theorem weight_eq (x1 : S11008x4096.Idx → BitVec 32) (x2 x3 : S11008.Idx → EReal) (o : Fin 11008) (k : Fin 4096) :
    val_main_v6 (F := Ideal) x1 x2 x3 (ix2 o k) = Cert.Woq.weight x1 x2 x3 o k := by
  rw [val_main_v6_apply, val_main_v3_apply, val_main_v5_apply, val_main_v4_apply, val_main_v2_apply, val_main_v1_apply,
    val_main_v0_apply, chan_eq, chan_eq']
  rfl

/-- The reference's result is the linear layer's function of the five arguments. -/
theorem reference_eq (x0 : S4x2048x4096.Idx → EReal) (x1 : S11008x4096.Idx → BitVec 32) (x2 x3 x4 : S11008.Idx → EReal) :
    val_main_v10 (F := Ideal) x0 x1 x2 x3 x4 = Cert.Woq.result x0 x1 x2 x3 x4 := by
  funext i
  obtain ⟨b, s, o, rfl⟩ : ∃ (b : Fin 4) (s : Fin 2048) (o : Fin 11008), i = ix3 b s o := ⟨i 0, i 1, i 2, eq_ix3 i⟩
  rw [val_main_v10_apply, val_main_v7_apply, val_main_v9_apply, val_main_v8_apply, bias_eq]
  show (∑ k : Fin 4096, _) + _ = (∑ k : Fin 4096, _) + _
  congr 1
  refine Finset.sum_congr rfl fun k _ => ?_
  rw [lidx_eq, ridx_eq, weight_eq]

end Cert.ReferenceIdeal.RefValue

end
-- ==== Proof.Entry.lean ====
/-
  What the kernel's region finds in its operand arrays. Before the region the host only re-lays the arguments: the
  activations `[4, 2048, 4096]` are viewed as `[8192, 4096]` (row `r` is row `r % 2048` of batch `r / 2048`), the
  scales and the zero points `[11008]` become columns `[11008, 1]`, the bias a row `[1, 11008]`; the codes are passed
  as they are. Each of those arrays is read here at an index, from the argument it re-lays.
-/
import proofs.«171484_j69526930587939_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-! ## The three re-layings, read at an index (any element type) -/

/-- `[4, 2048, 4096]` viewed as `[8192, 4096]`: row `s` of batch `b` is row `r = b * 2048 + s`. -/
theorem merged_rows_apply {α : Type} (x : S4x2048x4096.Idx → α) (h : S4x2048x4096.ShapeCasts S8192x4096)
    (b : Fin 4) (s : Fin 2048) (r : Fin 8192) (hr : r.val = b.val * 2048 + s.val) (k : Fin 4096) :
    shapeCast S8192x4096 x h (ix2 r k) = x (ix3 b s k) :=
  shapeCast_apply x h _ _ (by
    rw [Shape.rowMajor_val_three, Shape.rowMajor_val_two]
    show (b.val * 2048 + s.val) * 4096 + k.val = r.val * 4096 + k.val
    rw [hr])

/-- `[4, 2048, 11008]` from `[8192, 11008]`: row `s` of batch `b` is row `b * 2048 + s`. -/
theorem split_rows_apply {α : Type} (y : S8192x11008.Idx → α) (h : S8192x11008.ShapeCasts S4x2048x11008) (b : Fin 4) (s : Fin 2048) (o : Fin 11008) :
    shapeCast S4x2048x11008 y h (ix3 b s o) = y (ix2 (⟨b.val * 2048 + s.val, by omega⟩ : Fin 8192) o) :=
  shapeCast_apply y h _ _ (by
    rw [Shape.rowMajor_val_three, Shape.rowMajor_val_two]
    show (b.val * 2048 + s.val) * 11008 + o.val = (b.val * 2048 + s.val) * 11008 + o.val
    rfl)

/-- A vector `[11008]` as a column `[11008, 1]`: entry `(o, 0)` is entry `o`. -/
theorem column_apply {α : Type} (v : S11008.Idx → α) (h : S11008.ShapeCasts S11008x1) (o : Fin 11008) (u : Fin 1) :
    shapeCast S11008x1 v h (ix2 o u) = v (ix1 o) :=
  shapeCast_apply v h _ _ (by
    have hu : u.val = 0 := by omega
    rw [Shape.rowMajor_val_two, Shape.rowMajor_val_one]
    show o.val = o.val * 1 + u.val
    omega)

/-! ## The operand arrays at the region's entry -/

variable (m : (ℓ : Loc nD τ sig) → Buf (Elt Ideal) ℓ)

/-- The activations as the region finds them. -/
theorem found_x (c : Dev nD) (b : Fin 4) (s : Fin 2048) (r : Fin 8192) (hr : r.val = b.val * 2048 + s.val) (k : Fin 4096) :
    (V m c main_v0 : S8192x4096.Idx → EReal) (ix2 r k) = m ((c : Thread nD τ).loc main_arg0) (ix3 b s k) := by
  have e : (V m c main_v0 : S8192x4096.Idx → EReal)
      = shapeCast S8192x4096 (m ((c : Thread nD τ).loc main_arg0)) shapeCasts_S4x2048x4096_S8192x4096 := by
    show StableHlo.after hostOps0 (fun b => m (c, b)) (Proc.devRef .tc main_v0) = _
    after_results
    rfl
  rw [e, merged_rows_apply _ _ b s r hr]

/-- The scales' column as the region finds it. -/
theorem found_scale (c : Dev nD) (o : Fin 11008) (u : Fin 1) :
    (V m c main_v1 : S11008x1.Idx → EReal) (ix2 o u) = m ((c : Thread nD τ).loc main_arg2) (ix1 o) := by
  have e : (V m c main_v1 : S11008x1.Idx → EReal)
      = shapeCast S11008x1 (m ((c : Thread nD τ).loc main_arg2)) shapeCasts_S11008_S11008x1 := by
    show StableHlo.after hostOps0 (fun b => m (c, b)) (Proc.devRef .tc main_v1) = _
    after_results
    rfl
  rw [e, column_apply]

/-- The zero points' column as the region finds it. -/
theorem found_zero (c : Dev nD) (o : Fin 11008) (u : Fin 1) :
    (V m c main_v2 : S11008x1.Idx → EReal) (ix2 o u) = m ((c : Thread nD τ).loc main_arg3) (ix1 o) := by
  have e : (V m c main_v2 : S11008x1.Idx → EReal)
      = shapeCast S11008x1 (m ((c : Thread nD τ).loc main_arg3)) shapeCasts_S11008_S11008x1 := by
    show StableHlo.after hostOps0 (fun b => m (c, b)) (Proc.devRef .tc main_v2) = _
    after_results
    rfl
  rw [e, column_apply]

/-- The bias row as the region finds it. -/
theorem found_bias (c : Dev nD) (u : Fin 1) (o : Fin 11008) :
    (V m c main_v3 : S1x11008.Idx → EReal) (ix2 u o) = m ((c : Thread nD τ).loc main_arg4) (ix1 o) := by
  have e : (V m c main_v3 : S1x11008.Idx → EReal)
      = shapeCast S1x11008 (m ((c : Thread nD τ).loc main_arg4)) shapeCasts_S11008_S1x11008 := by
    show StableHlo.after hostOps0 (fun b => m (c, b)) (Proc.devRef .tc main_v3) = _
    after_results
    rfl
  rw [e, shapeCast_a_1a_apply]

end Cert.KernelIdeal.Entry

end
-- ==== Proof.Body.lean ====
/-
  The kernel body's one store, read at an entry `(p, n)` of the `[512, 256]` output block: row `p` of the activation
  block contracted over the 4096 features with row `n` of the dequantized weight block, plus entry `n` of the bias row.
  At the ideal values the two casts to bf16 are the identity, the matrix unit's product into a zero accumulator is the
  plain sum over the contracted axis, and the zero points and scales, kept as `[256, 1]` columns, are spread along the
  features.
-/
import proofs.«171484_j69526930587939_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- A `[256, 1]` column spread along 4096 features reads, at `(n, k)`, the column's entry of row `n`. -/
theorem column_spread {α : Type} (v : S256x1.Idx → α) (h : S256x1.Broadcasts S256x4096) (n : Fin 256) (k : Fin 4096) :
    broadcastTo S256x4096 v h (ix2 n k) = v (ix2 n (0 : Fin 1)) := by
  refine broadcastTo_apply v h (ix2 n k) (ix2 n (0 : Fin 1)) fun ax => ?_
  match ax with
  | ⟨0, _⟩ => rfl
  | ⟨1, _⟩ => rfl

/-! ## The operand indices of the body's matrix product -/

/-- The left operand's row is the output's row … -/
theorem lhs_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
/-- … and its column the contracted feature. -/
theorem lhs_col (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's row is the output's column … -/
theorem rhs_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
/-- … and its column the contracted feature. -/
theorem rhs_col (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The body's matrix product into the zero accumulator, at entry `(p, n)`: the sum over the features of row `p` of
    the left operand times row `n` of the right one (both operands are contracted along their last axis). -/
theorem product_at (l : FVec Ideal S512x4096 .bf16) (r : FVec Ideal S256x4096 .bf16) (p : Fin 512) (n : Fin 256) :
    matmul dot_S512x4096_S256x4096_S512x256_1_1_0_0_n_n none l r (constant (F := Ideal) S512x256 .f32 0x00000000#32) (ix2 p n)
      = ∑ k : Fin 4096, l (ix2 p k) * r (ix2 n k) := by
  simp only [matmul]
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p n) ((contrEquiv1 dot_S512x4096_S256x4096_S512x256_1_1_0_0_n_n 4096 rfl rfl).symm k) = ix2 p k :=
    funext fun a => Fin.ext (by
      match a with
      | ⟨0, _⟩ => exact lhs_row _ _
      | ⟨1, _⟩ => exact (lhs_col _ _).trans hk)
  have er : dot_S512x4096_S256x4096_S512x256_1_1_0_0_n_n.rhsIdx (ix2 p n) ((contrEquiv1 dot_S512x4096_S256x4096_S512x256_1_1_0_0_n_n 4096 rfl rfl).symm k) = ix2 n k :=
    funext fun a => Fin.ext (by
      match a with
      | ⟨0, _⟩ => exact rhs_row _ _
      | ⟨1, _⟩ => exact (rhs_col _ _).trans hk)
  rw [el, er]

/-- THE BODY'S STORE at entry `(p, n)` of the output block, from the five loaded blocks: the codes `q`, the zero
    points `zp` and the scales `sc` (columns), the activations `x` and the bias row `b`. -/
theorem payload_at (q : Vec Ideal S256x4096 .i32) (zp sc : FVec Ideal S256x1 .f32) (x : FVec Ideal S512x4096 .f32)
    (b : FVec Ideal S1x256 .f32) (p : Fin 512) (n : Fin 256) :
    k0_pay1 (F := Ideal) q zp sc x b (ix2 p n)
      = (∑ k : Fin 4096, x (ix2 p k)
            * (((FloatOps.sitofp (F := Ideal) .f32 (q (ix2 n k)) : EReal) - zp (ix2 n (0 : Fin 1))) * sc (ix2 n (0 : Fin 1))))
          + b (ix2 (0 : Fin 1) n) := by
  unfold k0_pay1
  simp only [shapeCast_self]
  rw [addf_apply, product_at, broadcastTo_1b_ab_apply]
  refine congrArg (· + b (ix2 (0 : Fin 1) n)) (Finset.sum_congr rfl fun k _ => ?_)
  rw [truncf_apply, truncf_apply, mulf_apply, subf_apply, sitofp_apply, column_spread, column_spread]

end Cert.KernelIdeal.Body

end
-- ==== Proof.Blocks.lean ====
/-
  From blocks to the array. The grid is `16 x 43`: point `(i, j)` takes rows `512 i .. 512 i + 511` of the activations
  and channels `256 j .. 256 j + 255` of the codes, scales, zero points and bias, and writes block `(i, j)` of the
  `[8192, 11008]` output. Every entry the body stores depends only on the entry's own row `r` of the activations and
  its own channel `o`, so each block written back is the restriction of ONE function `rowsTimesChannels` of the arrays
  the region finds; the 688 blocks tile the output, so after the run the output array is that function.
-/
import proofs.«171484_j69526930587939_1_alg».proof.Proof.Gen.KernelIdeal.Frame
import proofs.«171484_j69526930587939_1_alg».proof.Proof.Body
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- Entry `(r, o)` of the output from the operand arrays as the region finds them: activations `X [8192, 4096]`, codes
    `Q [11008, 4096]`, scales `SC` and zero points `ZP` as columns `[11008, 1]`, the bias `B` as a row `[1, 11008]`. -/
def rowTimesChannel (X : S8192x4096.Idx → EReal) (Q : S11008x4096.Idx → BitVec 32) (SC ZP : S11008x1.Idx → EReal)
    (B : S1x11008.Idx → EReal) (r : Fin 8192) (o : Fin 11008) : EReal :=
  (∑ k : Fin 4096, X (ix2 r k)
      * (((FloatOps.sitofp (F := Ideal) .f32 (Q (ix2 o k)) : EReal) - ZP (ix2 o (0 : Fin 1))) * SC (ix2 o (0 : Fin 1))))
    + B (ix2 (0 : Fin 1) o)

/-- The body's store at entry `j` of its block is `rowTimesChannel` at `(r, o)` as soon as the loaded blocks are the
    arrays read at row `r` and channel `o` — stated over variables, the blocks and the arrays being anything. -/
theorem entry_eq (q : Vec Ideal S256x4096 .i32) (zp sc : FVec Ideal S256x1 .f32) (x : FVec Ideal S512x4096 .f32)
    (b : FVec Ideal S1x256 .f32) (X : S8192x4096.Idx → EReal) (Q : S11008x4096.Idx → BitVec 32)
    (SC ZP : S11008x1.Idx → EReal) (B : S1x11008.Idx → EReal) (j : S512x256.Idx) (r : Fin 8192) (o : Fin 11008)
    (hx : ∀ k : Fin 4096, x (ix2 (j 0) k) = X (ix2 r k)) (hq : ∀ k : Fin 4096, q (ix2 (j 1) k) = Q (ix2 o k))
    (hzp : zp (ix2 (j 1) (0 : Fin 1)) = ZP (ix2 o (0 : Fin 1))) (hsc : sc (ix2 (j 1) (0 : Fin 1)) = SC (ix2 o (0 : Fin 1)))
    (hb : b (ix2 (0 : Fin 1) (j 1)) = B (ix2 (0 : Fin 1) o)) :
    k0_pay1 (F := Ideal) q zp sc x b j = rowTimesChannel X Q SC ZP B r o := by
  obtain ⟨p, n, rfl⟩ : ∃ (p : Fin 512) (n : Fin 256), j = ix2 p n := ⟨j 0, j 1, eq_ix2 j⟩
  rw [Body.payload_at]
  unfold rowTimesChannel
  have hx' : ∀ k : Fin 4096, x (ix2 p k) = X (ix2 r k) := hx
  have hq' : ∀ k : Fin 4096, q (ix2 n k) = Q (ix2 o k) := hq
  have hzp' : zp (ix2 n (0 : Fin 1)) = ZP (ix2 o (0 : Fin 1)) := hzp
  have hsc' : sc (ix2 n (0 : Fin 1)) = SC (ix2 o (0 : Fin 1)) := hsc
  have hb' : b (ix2 (0 : Fin 1) n) = B (ix2 (0 : Fin 1) o) := hb
  rw [hzp', hsc', hb']
  refine congrArg (· + B (ix2 (0 : Fin 1) o)) (Finset.sum_congr rfl fun k _ => ?_)
  rw [hx' k, hq' k]

variable (m : (ℓ : Loc nD τ sig) → Buf (Elt Ideal) ℓ)

/-- The output array `[8192, 11008]` as one function of the arrays the region finds. -/
def rowsTimesChannels (c : Dev nD) : S8192x11008.Idx → EReal := fun i =>
  rowTimesChannel (V m c main_v0) (V m c main_arg1) (V m c main_v1) (V m c main_v2) (V m c main_v3) (i 0) (i 1)

theorem zero_offsets : (![0, 0] : Fin 2 → Nat) = fun _ => 0 := funext fun a => by fin_cases a <;> rfl

/-- The printed index maps, decided once over the 688 points: the activations' block follows the output's block row,
    the four per-channel operands follow its block column, every other block coordinate is zero. -/
theorem block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2) :=
  (by decide +kernel : ∀ t : Fin grid0.N, _)

/-- Block `(a, b)` of the output is written at point `43 a + b`. -/
theorem block_of_point : ∀ (a : Fin 16) (b : Fin 43) (h : a.val * 43 + b.val < grid0.N),
    win0_5.index (⟨a.val * 43 + b.val, h⟩ : Fin grid0.N) = ![a.val, b.val] := by
  decide +kernel

/-- WHAT POINT `t` WRITES BACK is block `t` of `rowsTimesChannels`. -/
theorem flushed_eq (c : Dev nD) (t : Fin cfg0.N) :
    (dats m 0 c).flushed 5 t = ((cfg0.win 5).blk t).view.read (Elt Ideal) (rowsTimesChannels m c) := by
  show (cfg0.win 5).cut (grid0.coords t) ((dats m 0 c).after 5 t) = _
  rw [after0_5]
  unfold out0_5
  rw [View.canon_unit_zero zero_offsets]
  simp only [View.ld_unit_zero (S := S256x4096) zero_offsets, View.ld_unit_zero (S := S256x1) zero_offsets,
    View.ld_unit_zero (S := S512x4096) zero_offsets, View.ld_unit_zero (S := S1x256) zero_offsets]
  obtain ⟨e00, e01, e10, e11, e20, e21, e30, e31, e40, e41⟩ := block_indices t
  funext j
  show k0_pay1 (F := Ideal) (iblk m c 1 t) (iblk m c 3 t) (iblk m c 2 t) (iblk m c 0 t) (iblk m c 4 t) j
    = rowTimesChannel (V m c main_v0) (V m c main_arg1) (V m c main_v1) (V m c main_v2) (V m c main_v3)
        ((((cfg0.win 5).blk t).view.emb j) 0) ((((cfg0.win 5).blk t).view.emb j) 1)
  refine entry_eq (iblk m c 1 t) (iblk m c 3 t) (iblk m c 2 t) (iblk m c 0 t) (iblk m c 4 t)
    (V m c main_v0) (V m c main_arg1) (V m c main_v1) (V m c main_v2) (V m c main_v3) j
    ((((cfg0.win 5).blk t).view.emb j) 0) ((((cfg0.win 5).blk t).view.emb j) 1) (fun k => ?_) (fun k => ?_) ?_ ?_ ?_
  · show V m c main_v0 (((cfg0.win 0).blk t).view.emb (ix2 (j 0) k)) = V m c main_v0 _
    refine congrArg _ (funext fun a => Fin.ext ?_)
    match a with
    | ⟨0, _⟩ => show win0_0.index t (0 : Fin 2) * 512 + 1 * (j 0).val = win0_5.index t (0 : Fin 2) * 512 + 1 * (j 0).val; rw [e00]
    | ⟨1, _⟩ => show win0_0.index t (1 : Fin 2) * 4096 + 1 * k.val = k.val; rw [e01]; omega
  · show V m c main_arg1 (((cfg0.win 1).blk t).view.emb (ix2 (j 1) k)) = V m c main_arg1 _
    refine congrArg _ (funext fun a => Fin.ext ?_)
    match a with
    | ⟨0, _⟩ => show win0_1.index t (0 : Fin 2) * 256 + 1 * (j 1).val = win0_5.index t (1 : Fin 2) * 256 + 1 * (j 1).val; rw [e10]
    | ⟨1, _⟩ => show win0_1.index t (1 : Fin 2) * 4096 + 1 * k.val = k.val; rw [e11]; omega
  · show V m c main_v2 (((cfg0.win 3).blk t).view.emb (ix2 (j 1) (0 : Fin 1))) = V m c main_v2 _
    refine congrArg _ (funext fun a => Fin.ext ?_)
    match a with
    | ⟨0, _⟩ => show win0_3.index t (0 : Fin 2) * 256 + 1 * (j 1).val = win0_5.index t (1 : Fin 2) * 256 + 1 * (j 1).val; rw [e30]
    | ⟨1, _⟩ => show win0_3.index t (1 : Fin 2) * 1 + 1 * 0 = 0; rw [e31]
  · show V m c main_v1 (((cfg0.win 2).blk t).view.emb (ix2 (j 1) (0 : Fin 1))) = V m c main_v1 _
    refine congrArg _ (funext fun a => Fin.ext ?_)
    match a with
    | ⟨0, _⟩ => show win0_2.index t (0 : Fin 2) * 256 + 1 * (j 1).val = win0_5.index t (1 : Fin 2) * 256 + 1 * (j 1).val; rw [e20]
    | ⟨1, _⟩ => show win0_2.index t (1 : Fin 2) * 1 + 1 * 0 = 0; rw [e21]
  · show V m c main_v3 (((cfg0.win 4).blk t).view.emb (ix2 (0 : Fin 1) (j 1))) = V m c main_v3 _
    refine congrArg _ (funext fun a => Fin.ext ?_)
    match a with
    | ⟨0, _⟩ => show win0_4.index t (0 : Fin 2) * 1 + 1 * 0 = 0; rw [e40]
    | ⟨1, _⟩ => show win0_4.index t (1 : Fin 2) * 256 + 1 * (j 1).val = win0_5.index t (1 : Fin 2) * 256 + 1 * (j 1).val; rw [e41]

/-- An index of the output is in point `t`'s block iff each coordinate is in the block's range on its axis. -/
theorem mem_blk (t : Fin cfg0.N) (i : S8192x11008.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v4).slice (win0_5.rect t)).set ↔ _
  rw [View.set_slice_whole, Rect.mem_set_unit]
  exact Iff.rfl

/-- The blocks tile the output: entry `(r, o)` is in the block written at point `43 (r / 512) + o / 256`. -/
theorem cover (i : S8192x11008.Idx) : ∃ t : Fin cfg0.N, (cfg0.win 5).flush t = true ∧ i ∈ ((cfg0.win 5).blk t).view.set := by
  have hi0 : (i 0).val < 8192 := (i 0).isLt
  have hi1 : (i 1).val < 11008 := (i 1).isLt
  have hN : grid0.N = 688 := N_0
  have hb : (i 0).val / 512 * 43 + (i 1).val / 256 < grid0.N := by rw [hN]; omega
  have ht := block_of_point ⟨(i 0).val / 512, by omega⟩ ⟨(i 1).val / 256, by omega⟩ hb
  have q0 : win0_5.index ⟨(i 0).val / 512 * 43 + (i 1).val / 256, hb⟩ (0 : Fin 2) = (i 0).val / 512 := congrFun ht 0
  have q1 : win0_5.index ⟨(i 0).val / 512 * 43 + (i 1).val / 256, hb⟩ (1 : Fin 2) = (i 1).val / 256 := congrFun ht 1
  refine ⟨⟨(i 0).val / 512 * 43 + (i 1).val / 256, hb⟩, flush0_5 _, ?_⟩
  rw [mem_blk]
  intro a
  match a with
  | ⟨0, _⟩ =>
    show win0_5.index ⟨(i 0).val / 512 * 43 + (i 1).val / 256, hb⟩ (0 : Fin 2) * 512 ≤ (i 0).val
      ∧ (i 0).val < win0_5.index ⟨(i 0).val / 512 * 43 + (i 1).val / 256, hb⟩ (0 : Fin 2) * 512 + 512
    rw [q0]; omega
  | ⟨1, _⟩ =>
    show win0_5.index ⟨(i 0).val / 512 * 43 + (i 1).val / 256, hb⟩ (1 : Fin 2) * 256 ≤ (i 1).val
      ∧ (i 1).val < win0_5.index ⟨(i 0).val / 512 * 43 + (i 1).val / 256, hb⟩ (1 : Fin 2) * 256 + 256
    rw [q1]; omega

/-- THE OUTPUT ARRAY after the run is `rowsTimesChannels`. -/
theorem final (c : Dev nD) : (dats m 0 c).arrAt 5 cfg0.N = rowsTimesChannels m c :=
  (dats m 0 c).arrAt_eq_of_cover 5 (rowsTimesChannels m c) (fun t _ => flushed_eq m c t) cover

end Cert.KernelIdeal.Blocks

end
-- ==== Proof.KernelValue.lean ====
/-
  The kernel's run, read. After the region the host views the `[8192, 11008]` output as `[4, 2048, 11008]`: row `s`
  of batch `b` is row `b * 2048 + s`. With the output array after the run (one function of the arrays the region
  finds) and those arrays read from the arguments they re-lay, the result at `(b, s, o)` is the linear layer's
  `Woq.linear` of the five arguments there: the kernel's result is `Woq.result`, and the arguments end as launched.
-/
import proofs.«171484_j69526930587939_1_alg».proof.Proof.Gen.KernelIdeal.Frame
import proofs.«171484_j69526930587939_1_alg».proof.Proof.Spec
import proofs.«171484_j69526930587939_1_alg».proof.Proof.Entry
import proofs.«171484_j69526930587939_1_alg».proof.Proof.Blocks
import Idealize.ShloMosaic.Lib.Pipeline.Value
import Idealize.ShloMosaic.Lib.ValueIdx
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The one host operation after the region re-lays the region's output array. -/
theorem tail_eq (c : Dev nD) :
    (Pipeline.afterTail₀ cfgs (dats m) 0 (V0 m) [hostOps1] c main_v5 : S4x2048x11008.Idx → EReal)
      = shapeCast S4x2048x11008 ((dats m 0 c).arrAt 5 cfg0.N) shapeCasts_S8192x11008_S4x2048x11008 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = (dats m 0 c).arrAt 5 cfg0.N :=
    Pipeline.withArrays_arr spec0 launch0.win.arr_inj c _ _ 5
  rw [e]
  rfl

/-- The output array after the run, at row `b * 2048 + s` and channel `o`, is the linear layer at `(b, s, o)`. -/
theorem output_at (c : Dev nD) (b : Fin 4) (s : Fin 2048) (o : Fin 11008) (r : Fin 8192) (hr : r.val = b.val * 2048 + s.val) :
    Blocks.rowTimesChannel (V m c main_v0) (V m c main_arg1) (V m c main_v1) (V m c main_v2) (V m c main_v3) r o
      = Cert.Woq.linear (m ((c : Thread nD τ).loc main_arg0)) (m ((c : Thread nD τ).loc main_arg1)) (m ((c : Thread nD τ).loc main_arg2)) (m ((c : Thread nD τ).loc main_arg3)) (m ((c : Thread nD τ).loc main_arg4)) b s o := by
  unfold Blocks.rowTimesChannel Cert.Woq.linear Cert.Woq.weight
  rw [Entry.found_zero, Entry.found_scale, Entry.found_bias, V_main_arg1]
  refine congrArg (· + _) (Finset.sum_congr rfl fun k _ => ?_)
  rw [Entry.found_x m c b s r hr k]

/-- THE KERNEL'S RESULT: `Woq.result` of the five arguments as launched. -/
theorem result_eq (c : Dev nD) :
    (Pipeline.afterTail₀ cfgs (dats m) 0 (V0 m) [hostOps1] c main_v5 : S4x2048x11008.Idx → EReal)
      = Cert.Woq.result (m ((c : Thread nD τ).loc main_arg0)) (m ((c : Thread nD τ).loc main_arg1)) (m ((c : Thread nD τ).loc main_arg2)) (m ((c : Thread nD τ).loc main_arg3)) (m ((c : Thread nD τ).loc main_arg4)) := by
  rw [tail_eq, Blocks.final]
  funext i
  obtain ⟨b, s, o, rfl⟩ : ∃ (b : Fin 4) (s : Fin 2048) (o : Fin 11008), i = ix3 b s o := ⟨i 0, i 1, i 2, eq_ix3 i⟩
  rw [Entry.split_rows_apply]
  exact output_at m c b s o _ rfl

/-- The frame run re-posted: the result at `Woq.result` of the arguments, the arguments unchanged. -/
theorem run : θ_run defs (onTc (τ := τ) (main (F := Ideal))) ⟨m, fun _ => 0, ρ⟩ fun r => ∀ c : Dev nD,
      r.2.mem ((c : Thread nD τ).loc main_v5)
        = Cert.Woq.result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  The proof of `Cert.Claim` for the weight-only-quantized linear layer
      y[b, s, o] = (∑ k, x[b, s, k] * ((q[o, k] - zp[o]) * scale[o])) + bias[o]
  over `x : [4, 2048, 4096]`, integer codes `q : [11008, 4096]` and per-channel `scale`, `zp`, `bias : [11008]`.

  The kernel tiles the `[8192, 11008]` output into `16 x 43` blocks of `[512, 256]`; at each block it dequantizes the
  256 weight rows in f32, casts them and the 512 activation rows to bf16, multiplies on the matrix unit over all 4096
  features at once into a zero accumulator, and adds the bias row. The reference dequantizes the whole weight matrix and
  contracts it with the activations' last axis in one `dot_general`, then adds the bias.

  On the extended reals the casts are the identity and both matrix products are plain sums over the 4096 features of the
  same products in the same order, so both programs compute the one function `Woq.result` (Proof/Spec.lean) — no law
  of arithmetic is used beyond unfolding, and the inputs' finiteness is never opened:
    * Proof/Body.lean        the body's store at an entry of its block;
    * Proof/Blocks.lean      each block written back is a block of one function of the operand arrays, and the blocks
                             tile the output;
    * Proof/Entry.lean       the operand arrays are the arguments re-laid (rows merged, vectors as a column or a row);
    * Proof/KernelValue.lean the kernel's run with its result named, through the final re-laying of the output;
    * Proof/RefSide.lean     the reference's eleven operations read at an index.
  The three frames are the generated ones (the reference's is its generated run with the result dropped); the kernel's
  idealization rewrote nothing, so `preserves` is trivial.
-/
import proofs.«171484_j69526930587939_1_alg».proof.Defs
import proofs.«171484_j69526930587939_1_alg».proof.Proof.Gen.Kernel
import proofs.«171484_j69526930587939_1_alg».proof.Proof.Gen.Kernel.Skeleton
import proofs.«171484_j69526930587939_1_alg».proof.Proof.Gen.Kernel.Launch
import proofs.«171484_j69526930587939_1_alg».proof.Proof.Gen.Kernel.Points
import proofs.«171484_j69526930587939_1_alg».proof.Proof.Gen.Kernel.Frame
import proofs.«171484_j69526930587939_1_alg».proof.Proof.Gen.KernelIdeal
import proofs.«171484_j69526930587939_1_alg».proof.Proof.Gen.KernelIdeal.Skeleton
import proofs.«171484_j69526930587939_1_alg».proof.Proof.Gen.KernelIdeal.Launch
import proofs.«171484_j69526930587939_1_alg».proof.Proof.Gen.KernelIdeal.Points
import proofs.«171484_j69526930587939_1_alg».proof.Proof.Gen.KernelIdeal.Frame
import proofs.«171484_j69526930587939_1_alg».proof.Proof.Gen.ReferenceIdeal
import proofs.«171484_j69526930587939_1_alg».proof.Proof.Gen.ReferenceIdeal.Run
import proofs.«171484_j69526930587939_1_alg».proof.Proof.Gen.ReferenceIdeal.Read
import proofs.«171484_j69526930587939_1_alg».proof.Proof.Gen.Pre_finite_inputs
import proofs.«171484_j69526930587939_1_alg».proof.Proof.Spec
import proofs.«171484_j69526930587939_1_alg».proof.Proof.RefSide
import proofs.«171484_j69526930587939_1_alg».proof.Proof.KernelValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Run from memories that agree on the five arguments, the kernel ends with `Woq.result` of its arguments
    (Proof/KernelValue.lean) and the reference with `Woq.result` of its own (Proof/RefSide.lean): equal results. -/
theorem algebraic : Cert.algebraic_KernelIdeal_ReferenceIdeal := by
  intro m ρ m' ρ' _ hagree
  refine ⟨fun c => Cert.Woq.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
